-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128 .f32) (main_arg4 : FVec F S128 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S20000x128 : Shape := ⟨2, ![20000, 128]⟩
abbrev S20000x1 : Shape := ⟨2, ![20000, 1]⟩
abbrev S1x128 : Shape := ⟨2, ![1, 128]⟩
abbrev S20000 : Shape := ⟨1, ![20000]⟩

abbrev nBuf : Space → Nat
  | .hbm => 28
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S100000x1, .f32⟩
  | .hbm, ⟨27, _⟩ => ⟨S100000x128, .f32⟩
  | .local _ .vmem, ⟨0, _⟩ => ⟨S20000x128, .f32⟩
  | .local _ .vmem, ⟨1, _⟩ => ⟨S20000x128, .f32⟩
  | .local _ .vmem, ⟨2, _⟩ => ⟨S20000x1, .f32⟩
  | .local _ .vmem, ⟨3, _⟩ => ⟨S20000x1, .f32⟩
  | .local _ .vmem, ⟨4, _⟩ => ⟨S128x128, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S20000x128, .f32⟩
  | .local _ .vmem, ⟨9, _⟩ => ⟨S20000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S20000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  broadcasts_S20000x1_S20000x128 : S20000x1.Broadcasts S20000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S20000x128 : S1x128.Broadcasts S20000x128
  reduces_S20000x128_S20000 : S20000x128.Reduces [1] S20000
  shapeCasts_S20000_S20000x1 : S20000.ShapeCasts S20000x1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S20000x128_S128x128_S20000x128_1_0_0_1_n_n_wf : DotDims.WF S20000x128 S128x128 S20000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .f32 = 32 ∨ (Rect.block (s := S100000x128) S20000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x1.size a ≤ S100000x1.size a
  hwx0_1 : ∀ i : grid0.Coords, EltTy.bits .f32 = 32 ∨ (Rect.block (s := S100000x1) S20000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S20000x128.size a ≤ S100000x128.size a
  hwx0_6 : ∀ i : grid0.Coords, EltTy.bits .f32 = 32 ∨ (Rect.block (s := S100000x128) S20000x128.size (cc0_transform_6 i) (hinb0_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

abbrev win0_0 : Pipeline.Window sig grid0 :=
  Pipeline.Window.ofSpec (Memref.whole main_v13) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S20000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S20000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000, .f32⟩
  | .hbm, ⟨45, _⟩ => ⟨S100000x1, .f32⟩
  | .hbm, ⟨46, _⟩ => ⟨S_, .f32⟩
  | .hbm, ⟨47, _⟩ => ⟨S100000x1, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000, .f32⟩
  | .hbm, ⟨54, _⟩ => ⟨S100000x1, .f32⟩
  | .hbm, ⟨55, _⟩ => ⟨S_, .f32⟩
  | .hbm, ⟨56, _⟩ => ⟨S100000x1, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x1, .f32⟩
  | .hbm, ⟨62, _⟩ => ⟨S100000x1, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_cst : Ref sig .tc := ⟨.hbm, 72, rfl⟩
abbrev main_call1_v0 : Ref sig .tc := ⟨.hbm, 73, rfl⟩
abbrev main_v50 : Ref sig .tc := ⟨.hbm, 74, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Layer.lean ====
/-
  One graph-convolution layer, row by row, on the extended reals.

  A node's aggregated features `a` (the sum of its in-neighbours' feature rows) are scaled by the inverse of its
  in-degree `d` — with the convention that a node without in-neighbours gets the factor 0 —, multiplied by the weight
  matrix, shifted by the bias, normalised over the 128 output features (subtract their mean, divide by the square root
  of their variance plus ε), scaled and shifted feature by feature, and clipped below at 0:

      p j   = Σ_k (a k · invDeg d) · W k j + b j
      μ     = (Σ_j p j) / 128
      σ²    = (Σ_j (p j − μ)²) / 128
      out j = max (((p j − μ) · (σ² + ε)^(−1/2)) · γ j + β j) 0

  Every operation is the exact one on the extended reals, so the definitions below are the layer whatever order a
  program sums in. The constants are kept as the binary words both programs carry (0, 1, 128 and the single-precision
  word nearest 10⁻⁵): none of them is ever evaluated.
-/
import Idealize.ShloMosaic.PureOps.Ideal
import Idealize.ShloMosaic.PureOps.Ideal.Laws
import Idealize.ShloMosaic.Lib.ValueIdx

noncomputable section

namespace Cert.GcnLayer

open Idealize.ShloMosaic Idealize.ShloMosaic.ValueIdx
open scoped BigOperators

/-- The constants of the layer, as the words the programs carry. -/
abbrev zero : Ideal .f32 := Ideal.ofBits .f32 0x00000000#32
abbrev one : Ideal .f32 := Ideal.ofBits .f32 0x3F800000#32
abbrev width : Ideal .f32 := Ideal.ofBits .f32 0x43000000#32
abbrev eps : Ideal .f32 := Ideal.ofBits .f32 0x3727C5AC#32

/-- The inverse in-degree: `1 / d` where `d > 0`, and `0` at a node no edge points to. -/
def invDeg (d : Ideal .f32) : Ideal .f32 :=
  Scalar.select (Ideal.cmp .ogt d zero) (Ideal.div one d) zero

/-- Guarding the divisor changes nothing: where `d > 0` the guarded divisor IS `d`, and elsewhere the quotient is not
    selected. -/
theorem invDeg_guarded (d : Ideal .f32) :
    Scalar.select (Ideal.cmp .ogt d zero) (Ideal.div one (Scalar.select (Ideal.cmp .ogt d zero) d one)) zero = invDeg d := by
  unfold invDeg
  rcases BitVec.eq_zero_or_eq_one (Ideal.cmp .ogt d zero) with h | h
  · rw [h]; simp only [select_zero]
  · rw [h]; simp only [select_one]

/-- A node's projected row: its aggregated features, scaled by `s`, times the weights, plus the bias. -/
def proj (a : Fin 128 → Ideal .f32) (s : Ideal .f32) (W : Fin 128 → Fin 128 → Ideal .f32) (b : Fin 128 → Ideal .f32)
    (j : Fin 128) : Ideal .f32 :=
  (∑ k : Fin 128, (a k * s) * W k j) + b j

/-- The mean of a row of 128 features. -/
def mean (p : Fin 128 → Ideal .f32) : Ideal .f32 := Ideal.div (∑ k : Fin 128, p k) width

/-- The variance of a row of 128 features (the mean of the squared deviations). -/
def var (p : Fin 128 → Ideal .f32) : Ideal .f32 :=
  Ideal.div (∑ k : Fin 128, (p k - mean p) * (p k - mean p)) width

/-- The normalised row before the affine map: the deviation from the mean over the root of variance plus ε. -/
def normed (p : Fin 128 → Ideal .f32) (j : Fin 128) : Ideal .f32 :=
  (p j - mean p) * Ideal.rsqrt (var p + eps)

/-- The layer's output row: the normalised row scaled by γ, shifted by β, clipped below at 0. -/
def out (p : Fin 128 → Ideal .f32) (g be : Fin 128 → Ideal .f32) (j : Fin 128) : Ideal .f32 :=
  max (normed p j * g j + be j) zero

/-- The whole layer at node `r`, feature `j`, from the aggregated features `A`, the in-degrees `deg`, the weights, the
    bias and the two affine vectors. -/
def layerAt (A : Fin 100000 → Fin 128 → Ideal .f32) (deg : Fin 100000 → Ideal .f32)
    (W : Fin 128 → Fin 128 → Ideal .f32) (b g be : Fin 128 → Ideal .f32) (r : Fin 100000) (j : Fin 128) : Ideal .f32 :=
  out (proj (A r) (invDeg (deg r)) W b) g be j

/-- The output row is a function of its six ingredients: equal ingredients, equal rows. -/
theorem out_proj_congr {a a' : Fin 128 → Ideal .f32} {s s' : Ideal .f32} {W W' : Fin 128 → Fin 128 → Ideal .f32}
    {b b' g g' be be' : Fin 128 → Ideal .f32} (ha : a = a') (hs : s = s') (hW : W = W') (hb : b = b') (hg : g = g')
    (hbe : be = be') (q : Fin 128) :
    out (proj a s W b) g be q = out (proj a' s' W' b') g' be' q := by
  subst ha hs hW hb hg hbe; rfl

/-- Likewise for the whole layer. -/
theorem layerAt_congr {A A' : Fin 100000 → Fin 128 → Ideal .f32} {deg deg' : Fin 100000 → Ideal .f32}
    {W W' : Fin 128 → Fin 128 → Ideal .f32} {b b' g g' be be' : Fin 128 → Ideal .f32} (hA : A = A') (hd : deg = deg')
    (hW : W = W') (hb : b = b') (hg : g = g') (hbe : be = be') (r : Fin 100000) (j : Fin 128) :
    layerAt A deg W b g be r j = layerAt A' deg' W' b' g' be' r j := by
  subst hA hd hW hb hg hbe; rfl

end Cert.GcnLayer

end
-- ==== Proof.LibColumn.lean ====
/-
  Column forms of the layout operations read at an index: a vector of `a` entries seen as an `a × 1` column,
  and such a column repeated along `b` columns. (The row forms, and the transpose, are the library's.)
-/
import Idealize.ShloMosaic.Lib.Pipeline.Value
import Idealize.ShloMosaic.Lib.ValueIdx
import Idealize.ShloMosaic.Lib.ValueLayout

namespace Idealize.ShloMosaic.ColumnForms

open Idealize.ShloMosaic Idealize.ShloMosaic.ValueIdx

variable {α : Type}

/-- An `[a]` array cast to the column `[a, 1]` reads, at `(i, u)`, the operand at `i`, whatever the unit
    coordinate `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnForms
-- ==== Proof.LibPlainDot.lean ====
/-
  The plain product of an M×K matrix by a K×N matrix, read at one entry, at the ideal values:
  entry (a, b) is the sum over the contracted coordinate c of A(a, c) · B(c, b).
  Stated for ANY dimension record equal to the plain one (rows × contraction by contraction × columns, no batch
  axis), for a kernel's matrix product accumulated into the zero splat and for the host's product, which has no
  accumulator: adding to zero is the only arithmetic used, so both hold at the infinities too.
-/
import Idealize.ShloMosaic.Lib.StackMember

noncomputable section

namespace Cert.LibPlainDot

open Idealize.ShloMosaic Idealize.ShloMosaic.ValueIdx
open scoped BigOperators

variable {M K N : Nat} {φ₁ φ₂ : FTy}

/-- The host's plain product at entry (a, b): the sum over c of A(a, c) · B(c, b). -/
theorem dotGeneral_plain_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    Host.dotGeneral D prec A B (ix2 a b) = ∑ c : Fin K, A (ix2 a c) * B (ix2 c b) := by
  subst hD
  exact StackMember.dotGeneral_plain_apply prec A B a b

/-- A kernel's plain product accumulated into the zero splat, at entry (a, b): the same sum. -/
theorem matmul_plain_zero_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact dotGeneral_plain_apply D hD prec A B a b

end Cert.LibPlainDot

end
-- ==== Proof.KernelRow.lean ====
/-
  The kernel body's arithmetic on one block of 20000 rows, read at one entry.

  The body's value before the affine map is a composition of five stages, each of which looks only along a row:
  the aggregated features times the row's inverse in-degree (a one-column block repeated along the row), the product
  with the 128 × 128 weights plus the bias row, the row mean, the deviation from it, and the reciprocal root of the
  row's mean squared deviation plus ε. Each stage is stated here for ARBITRARY blocks, and read at row `p`,
  column `q`: a column block repeated along rows reads its row's entry, a matrix product into the zero block is the
  sum over the contracted coordinate, a sum along the row is the sum over the row's 128 entries. Put together, the
  entry `(p, q)` of the body's value is the layer's normalised row (Layer.lean) of row `p` of the blocks, at `q`.
-/
import proofs.«163903_j8985071583979_2_alg».proof.Proof.Gen.KernelIdeal.Skeleton
import proofs.«163903_j8985071583979_2_alg».proof.Proof.Layer
import proofs.«163903_j8985071583979_2_alg».proof.Proof.LibColumn
import proofs.«163903_j8985071583979_2_alg».proof.Proof.LibPlainDot
import Idealize.ShloMosaic.Lib.ValueLayout
import Idealize.ShloMosaic.Lib.Pipeline.Value

noncomputable section

namespace Cert.KernelIdeal.RowValue

open Cert.KernelIdeal Cert.KernelIdeal.Gen Idealize.ShloMosaic Idealize.ShloMosaic.ValueIdx
open Idealize.ShloMosaic.ColumnForms Cert.GcnLayer
open scoped BigOperators

/-! ## The stages -/

/-- The column of inverse in-degrees of a column of in-degrees, the divisor guarded where it is not positive. -/
def invDegCol (d : FVec Ideal S20000x1 .f32) : FVec Ideal S20000x1 .f32 :=
  select (cmpf .ogt d (broadcast S20000x1 (Scalar.ofBits .f32 0x00000000#32)))
    (divf (broadcast S20000x1 (Scalar.ofBits .f32 0x3F800000#32))
      (select (cmpf .ogt d (broadcast S20000x1 (Scalar.ofBits .f32 0x00000000#32))) d
        (broadcast S20000x1 (Scalar.ofBits .f32 0x3F800000#32))))
    (broadcast S20000x1 (Scalar.ofBits .f32 0x00000000#32))

/-- Every row of a block times its row's entry of a column. -/
def scaled (a : FVec Ideal S20000x128 .f32) (s : FVec Ideal S20000x1 .f32) : FVec Ideal S20000x128 .f32 :=
  mulf a (broadcastTo S20000x128 s broadcasts_S20000x1_S20000x128)

/-- A block times the weights, plus the bias row on every row. -/
def projected (x : FVec Ideal S20000x128 .f32) (w : FVec Ideal S128x128 .f32) (b : FVec Ideal S128 .f32) :
    FVec Ideal S20000x128 .f32 :=
  addf (matmul dot_S20000x128_S128x128_S20000x128_1_0_0_1_n_n (some .fp32) x w (constant S20000x128 .f32 0x00000000#32))
    (broadcastTo S20000x128 (shapeCast S1x128 b shapeCasts_S128_S1x128) broadcasts_S1x128_S20000x128)

/-- The column of row sums. -/
def rowSumCol (v : FVec Ideal S20000x128 .f32) : FVec Ideal S20000x1 .f32 :=
  shapeCast S20000x1 (multiReduction .add [1] S20000 v 0x00000000#32 reduces_S20000x128_S20000 (.inl rfl) rfl)
    shapeCasts_S20000_S20000x1

/-- The column of row means. -/
def meanCol (v : FVec Ideal S20000x128 .f32) : FVec Ideal S20000x1 .f32 :=
  divf (rowSumCol v) (broadcast S20000x1 (Scalar.ofBits .f32 0x43000000#32))

/-- Every entry minus its row's mean. -/
def centred (v : FVec Ideal S20000x128 .f32) : FVec Ideal S20000x128 .f32 :=
  subf v (broadcastTo S20000x128 (meanCol v) broadcasts_S20000x1_S20000x128)

/-- The column of reciprocal roots of the rows' mean squared deviation plus ε. -/
def rstdCol (v : FVec Ideal S20000x128 .f32) : FVec Ideal S20000x1 .f32 :=
  rsqrt (addf (divf (rowSumCol (mulf (centred v) (centred v))) (broadcast S20000x1 (Scalar.ofBits .f32 0x43000000#32)))
    (broadcast S20000x1 (Scalar.ofBits .f32 0x3727C5AC#32)))

/-- Every deviation times its row's reciprocal root. -/
def normalize (v : FVec Ideal S20000x128 .f32) : FVec Ideal S20000x128 .f32 :=
  mulf (centred v) (broadcastTo S20000x128 (rstdCol v) broadcasts_S20000x1_S20000x128)

/-- The body's value before the affine map IS the composition of the stages (the two reshapes of a block to its own
    shape kept as they are printed). -/
theorem pay2_eq (x0 : Vec Ideal S20000x128 .f32) (x1 : Vec Ideal S20000x1 .f32) (x2 : Vec Ideal S128x128 .f32)
    (x3 : Vec Ideal S128 .f32) :
    k0_pay2 x0 x1 x2 x3 = normalize (projected (scaled (shapeCast S20000x128 x0 shapeCasts_S20000x128_S20000x128)
      (invDegCol (shapeCast S20000x1 x1 shapeCasts_S20000x1_S20000x1))) x2 x3) := rfl

/-! ## Each stage at an entry -/

theorem invDegCol_apply (d : FVec Ideal S20000x1 .f32) (y : S20000x1.Idx) : invDegCol d y = invDeg (d y) :=
  invDeg_guarded (d y)

theorem scaled_apply (a : FVec Ideal S20000x128 .f32) (s : FVec Ideal S20000x1 .f32) (p : Fin 20000) (k : Fin 128) :
    scaled a s (ix2 p k) = a (ix2 p k) * s (ix2 p (0 : Fin 1)) := by
  show a (ix2 p k) * broadcastTo S20000x128 s broadcasts_S20000x1_S20000x128 (ix2 p k) = _
  rw [broadcastTo_a1_ab_apply]

theorem dims_plain : dot_S20000x128_S128x128_S20000x128_1_0_0_1_n_n = DotDims.plain 20000 128 128 := rfl

theorem projected_apply (x : FVec Ideal S20000x128 .f32) (w : FVec Ideal S128x128 .f32) (b : FVec Ideal S128 .f32)
    (p : Fin 20000) (j : Fin 128) :
    projected x w b (ix2 p j) = (∑ k : Fin 128, x (ix2 p k) * w (ix2 k j)) + b (ix1 j) := by
  show matmul dot_S20000x128_S128x128_S20000x128_1_0_0_1_n_n (some .fp32) x w (constant S20000x128 .f32 0x00000000#32) (ix2 p j)
    + broadcastTo S20000x128 (shapeCast S1x128 b shapeCasts_S128_S1x128) broadcasts_S1x128_S20000x128 (ix2 p j) = _
  rw [Cert.LibPlainDot.matmul_plain_zero_apply _ dims_plain, broadcastTo_1b_ab_apply, shapeCast_a_1a_apply]

theorem rowSumCol_apply (v : FVec Ideal S20000x128 .f32) (p : Fin 20000) :
    rowSumCol v (ix2 p (0 : Fin 1)) = ∑ k : Fin 128, v (ix2 p k) := by
  unfold rowSumCol
  rw [shapeCast_a_a1_apply]
  refine (Ideal.multiReduction_add_single v 0x00000000#32 reduces_S20000x128_S20000 (.inl rfl) rfl (ix1 p)).trans ?_
  refine Finset.sum_congr rfl fun k _ => congrArg v (funext fun a => Fin.ext ?_)
  match a with
  | ⟨0, _⟩ => rfl
  | ⟨1, _⟩ => rfl

theorem meanCol_apply (v : FVec Ideal S20000x128 .f32) (p : Fin 20000) :
    meanCol v (ix2 p (0 : Fin 1)) = mean fun k => v (ix2 p k) := by
  show Ideal.div (rowSumCol v (ix2 p (0 : Fin 1))) width = _
  rw [rowSumCol_apply]
  rfl

theorem centred_apply (v : FVec Ideal S20000x128 .f32) (p : Fin 20000) (j : Fin 128) :
    centred v (ix2 p j) = v (ix2 p j) - mean fun k => v (ix2 p k) := by
  show v (ix2 p j) - broadcastTo S20000x128 (meanCol v) broadcasts_S20000x1_S20000x128 (ix2 p j) = _
  rw [broadcastTo_a1_ab_apply, meanCol_apply]

theorem rstdCol_apply (v : FVec Ideal S20000x128 .f32) (p : Fin 20000) :
    rstdCol v (ix2 p (0 : Fin 1)) = Ideal.rsqrt (var (fun k => v (ix2 p k)) + eps) := by
  show Ideal.rsqrt (Ideal.div (rowSumCol (mulf (centred v) (centred v)) (ix2 p (0 : Fin 1))) width + eps) = _
  rw [rowSumCol_apply]
  refine congrArg (fun s => Ideal.rsqrt (Ideal.div s width + eps)) (Finset.sum_congr rfl fun k _ => ?_)
  show centred v (ix2 p k) * centred v (ix2 p k) = _
  rw [centred_apply]

/-- The normalised block at `(p, j)` is the layer's normalised row of the block's row `p`, at `j`. -/
theorem normalize_apply (v : FVec Ideal S20000x128 .f32) (p : Fin 20000) (j : Fin 128) :
    normalize v (ix2 p j) = normed (fun k => v (ix2 p k)) j := by
  show centred v (ix2 p j) * broadcastTo S20000x128 (rstdCol v) broadcasts_S20000x1_S20000x128 (ix2 p j) = _
  rw [broadcastTo_a1_ab_apply, centred_apply, rstdCol_apply]
  rfl

/-! ## The body's value at an entry -/

/-- Entry `(p, q)` of the body's value before the affine map: the layer's normalised row, of the projection of row `p`
    of the feature block scaled by the inverse of row `p`'s in-degree, at `q`. -/
theorem pay2_apply (x0 : Vec Ideal S20000x128 .f32) (x1 : Vec Ideal S20000x1 .f32) (x2 : Vec Ideal S128x128 .f32)
    (x3 : Vec Ideal S128 .f32) (p : Fin 20000) (q : Fin 128) :
    k0_pay2 x0 x1 x2 x3 (ix2 p q)
      = normed (proj (fun k => x0 (ix2 p k)) (invDeg (x1 (ix2 p (0 : Fin 1)))) (fun k j => x2 (ix2 k j)) (fun j => x3 (ix1 j))) q := by
  rw [pay2_eq, normalize_apply]
  refine congrArg (fun r => normed r q) (funext fun j => ?_)
  rw [projected_apply]
  refine congrArg (· + x3 (ix1 j)) (Finset.sum_congr rfl fun k _ => ?_)
  rw [scaled_apply, shapeCast_self, shapeCast_self, invDegCol_apply]

end Cert.KernelIdeal.RowValue

end
-- ==== Proof.KernelArray.lean ====
/-
  From blocks to the array: what the kernel's result array holds after the run.

  The grid has five points; point `t` works on rows `20000·t … 20000·t + 19999`. Its feature block and its in-degree
  column are those rows of the two arrays the host operations left (the scattered sums), the weight matrix and the
  three vectors are fetched whole, and the block it writes back is those rows of the result. Entry `(p, q)` of what
  the body leaves is the layer's output row (Layer.lean) of row `p` of the blocks, at `q` (KernelRow.lean for the
  normalised value, the generated re-laying of the affine vectors for the rest); read through the blocks' places in
  their arrays this is the layer of the whole arrays at row `20000·t + p`. The five written blocks tile the result, the
  block of row `r` being the one of point `r / 20000`, so the result array IS the layer of the arrays the region found.
-/
import proofs.«163903_j8985071583979_2_alg».proof.Proof.Gen.KernelIdeal.Value
import proofs.«163903_j8985071583979_2_alg».proof.Proof.KernelRow

noncomputable section

namespace Cert.KernelIdeal.ArrayValue

open Cert.KernelIdeal Cert.KernelIdeal.Gen Idealize.ShloMosaic Idealize.ShloMosaic.TcCoe Idealize.SL.Sem
open Idealize.ShloMosaic.ValueIdx Cert.GcnLayer Cert.KernelIdeal.RowValue
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## One entry of what the body leaves in the output block -/

/-- Entry `(p, q)` of the output block after the body, for arbitrary input blocks: the layer's output row of row `p`. -/
theorem out_entry (x0 : Vec Ideal S20000x128 .f32) (x1 : Vec Ideal S20000x1 .f32) (x2 : Vec Ideal S128x128 .f32)
    (x3 x4 x5 : Vec Ideal S128 .f32) (y : S20000x128.Idx) (p : Fin 20000) (q : Fin 128)
    (hp : (y 0).val = p.val) (hq : (y 1).val = q.val) :
    out0_6 x0 x1 x2 x3 x4 x5 y
      = out (proj (fun k => x0 (ix2 p k)) (invDeg (x1 (ix2 p (0 : Fin 1)))) (fun k j => x2 (ix2 k j)) (fun j => x3 (ix1 j)))
          (fun j => x4 (ix1 j)) (fun j => x5 (ix1 j)) q := by
  obtain rfl : y = ix2 p q := funext fun a => Fin.ext (by
    match a with
    | ⟨0, _⟩ => exact hp
    | ⟨1, _⟩ => exact hq)
  unfold out0_6
  simp only [View.ld_unit_zero (S := S20000x128) hz2, View.ld_unit_zero (S := S20000x1) hz2,
    View.ld_unit_zero (S := S128x128) hz2, View.ld_unit_zero (S := S128) hz1]
  refine (Value.canon6_eq x0 x1 x2 x3 x4 x5 (ix2 p q)).trans ?_
  have i0 : Value.ix6_0 (ix2 p q) = ix2 p q := funext fun a => by
    match a with
    | ⟨0, _⟩ => rfl
    | ⟨1, _⟩ => rfl
  have i1 : Value.ix6_1 (ix2 p q) = ix1 q := funext fun a => by
    match a with
    | ⟨0, _⟩ => rfl
  have i2 : Value.ix6_2 (ix2 p q) = ix1 q := funext fun a => by
    match a with
    | ⟨0, _⟩ => rfl
  show max (k0_pay2 x0 x1 x2 x3 (Value.ix6_0 (ix2 p q)) * x4 (Value.ix6_1 (ix2 p q)) + x5 (Value.ix6_2 (ix2 p q))) zero = _
  rw [i0, i1, i2, pay2_apply]
  rfl

/-! ## The arrays the region finds, and the result as one function of them -/

/-- The layer of the six input windows' arrays as the region finds them: the two scattered sums the host operations wrote
    (the aggregated features, and the in-degrees as a column), the weights and the three vectors. -/
def result (c : Dev nD) : S100000x128.Idx → Ideal .f32 := fun i =>
  layerAt (fun r k => (V m c (Pipeline.arrRef spec0 0) : S100000x128.Idx → Ideal .f32) (ix2 r k))
    (fun r => (V m c (Pipeline.arrRef spec0 1) : S100000x1.Idx → Ideal .f32) (ix2 r (0 : Fin 1)))
    (fun k j => (V m c (Pipeline.arrRef spec0 2) : S128x128.Idx → Ideal .f32) (ix2 k j))
    (fun j => (V m c (Pipeline.arrRef spec0 3) : S128.Idx → Ideal .f32) (ix1 j))
    (fun j => (V m c (Pipeline.arrRef spec0 4) : S128.Idx → Ideal .f32) (ix1 j))
    (fun j => (V m c (Pipeline.arrRef spec0 5) : S128.Idx → Ideal .f32) (ix1 j))
    ⟨(i 0).val, (i 0).isLt⟩ ⟨(i 1).val, (i 1).isLt⟩

theorem result_at (c : Dev nD) (i : S100000x128.Idx) (r : Fin 100000) (q : Fin 128) (hr : (i 0).val = r.val)
    (hq : (i 1).val = q.val) :
    result m c i = layerAt (fun r k => (V m c (Pipeline.arrRef spec0 0) : S100000x128.Idx → Ideal .f32) (ix2 r k))
      (fun r => (V m c (Pipeline.arrRef spec0 1) : S100000x1.Idx → Ideal .f32) (ix2 r (0 : Fin 1)))
      (fun k j => (V m c (Pipeline.arrRef spec0 2) : S128x128.Idx → Ideal .f32) (ix2 k j))
      (fun j => (V m c (Pipeline.arrRef spec0 3) : S128.Idx → Ideal .f32) (ix1 j))
      (fun j => (V m c (Pipeline.arrRef spec0 4) : S128.Idx → Ideal .f32) (ix1 j))
      (fun j => (V m c (Pipeline.arrRef spec0 5) : S128.Idx → Ideal .f32) (ix1 j)) r q := by
  obtain rfl : i = ix2 r q := funext fun a => Fin.ext (by
    match a with
    | ⟨0, _⟩ => exact hr
    | ⟨1, _⟩ => exact hq)
  rfl

/-- The same, with the layer spelt out as the output row of the projected row. -/
theorem result_rows (c : Dev nD) (i : S100000x128.Idx) (r : Fin 100000) (q : Fin 128) (hr : (i 0).val = r.val)
    (hq : (i 1).val = q.val) :
    result m c i = out (proj (fun k => (V m c (Pipeline.arrRef spec0 0) : S100000x128.Idx → Ideal .f32) (ix2 r k))
        (invDeg ((V m c (Pipeline.arrRef spec0 1) : S100000x1.Idx → Ideal .f32) (ix2 r (0 : Fin 1))))
        (fun k j => (V m c (Pipeline.arrRef spec0 2) : S128x128.Idx → Ideal .f32) (ix2 k j))
        (fun j => (V m c (Pipeline.arrRef spec0 3) : S128.Idx → Ideal .f32) (ix1 j)))
      (fun j => (V m c (Pipeline.arrRef spec0 4) : S128.Idx → Ideal .f32) (ix1 j))
      (fun j => (V m c (Pipeline.arrRef spec0 5) : S128.Idx → Ideal .f32) (ix1 j)) q :=
  result_at m c i r q hr hq

/-! ## Where each window's block sits -/

/-- The printed index maps over the grid: the feature block, the in-degree column and the output block of point `t`
    are block `t` of their arrays along the rows; the other four windows are always block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0 ∧ win0_5.index t (0 : Fin 1) = 0
    ∧ win0_6.index t (0 : Fin 2) = t.val ∧ win0_6.index t (1 : Fin 2) = 0 ∧ t.val ≤ 4 :=
  (by decide +kernel : ∀ t : Fin grid0.N, _)

/-- Every one of the five row blocks is some point's. -/
theorem idx_onto : ∀ q0 : Fin 5, ∃ t : Fin cfg0.N, t.val = q0.val :=
  (by decide +kernel : ∀ q0 : Fin 5, ∃ t : Fin grid0.N, t.val = q0.val)

/-- Row `p` of the feature window's block at point `t` is row `20000·t + p` of the array, whatever the array holds. -/
theorem read_features (X : S100000x128.Idx → Ideal .f32) (t : Fin cfg0.N) (p : Fin 20000) (k : Fin 128) (r : Fin 100000)
    (hr : r.val = t.val * 20000 + p.val) :
    ((cfg0.win 0).blk t).view.read (Elt Ideal) X (ix2 p k) = X (ix2 r k) := by
  obtain ⟨e00, e01, -⟩ := idx_facts t
  have h : ((cfg0.win 0).blk t).view.emb (ix2 p k) = ix2 r k := by
    funext a; apply Fin.ext
    match a with
    | ⟨0, _⟩ => show win0_0.index t (0 : Fin 2) * 20000 + 1 * p.val = r.val; omega
    | ⟨1, _⟩ => show win0_0.index t (1 : Fin 2) * 128 + 1 * k.val = k.val; omega
  show X (((cfg0.win 0).blk t).view.emb (ix2 p k)) = X (ix2 r k)
  rw [h]

/-- The same for the one-column in-degree window. -/
theorem read_degrees (X : S100000x1.Idx → Ideal .f32) (t : Fin cfg0.N) (p : Fin 20000) (r : Fin 100000)
    (hr : r.val = t.val * 20000 + p.val) :
    ((cfg0.win 1).blk t).view.read (Elt Ideal) X (ix2 p (0 : Fin 1)) = X (ix2 r (0 : Fin 1)) := by
  obtain ⟨-, -, e10, e11, -⟩ := idx_facts t
  have h : ((cfg0.win 1).blk t).view.emb (ix2 p (0 : Fin 1)) = ix2 r (0 : Fin 1) := by
    funext a; apply Fin.ext
    match a with
    | ⟨0, _⟩ => show win0_1.index t (0 : Fin 2) * 20000 + 1 * p.val = r.val; omega
    | ⟨1, _⟩ => show win0_1.index t (1 : Fin 2) * 1 + 1 * 0 = 0; omega
  show X (((cfg0.win 1).blk t).view.emb (ix2 p (0 : Fin 1))) = X (ix2 r (0 : Fin 1))
  rw [h]

/-- The weight window's block is the whole matrix at every point. -/
theorem read_weights (X : S128x128.Idx → Ideal .f32) (t : Fin cfg0.N) (k j : Fin 128) :
    ((cfg0.win 2).blk t).view.read (Elt Ideal) X (ix2 k j) = X (ix2 k j) := by
  obtain ⟨-, -, -, -, e20, e21, -⟩ := idx_facts t
  have h : ((cfg0.win 2).blk t).view.emb (ix2 k j) = ix2 k j := by
    funext a; apply Fin.ext
    match a with
    | ⟨0, _⟩ => show win0_2.index t (0 : Fin 2) * 128 + 1 * k.val = k.val; omega
    | ⟨1, _⟩ => show win0_2.index t (1 : Fin 2) * 128 + 1 * j.val = j.val; omega
  show X (((cfg0.win 2).blk t).view.emb (ix2 k j)) = X (ix2 k j)
  rw [h]

/-- The three vector windows' blocks are the whole vectors at every point. -/
theorem read_bias (X : S128.Idx → Ideal .f32) (t : Fin cfg0.N) (j : Fin 128) :
    ((cfg0.win 3).blk t).view.read (Elt Ideal) X (ix1 j) = X (ix1 j) := by
  obtain ⟨-, -, -, -, -, -, e3, -⟩ := idx_facts t
  have h : ((cfg0.win 3).blk t).view.emb (ix1 j) = ix1 j := by
    funext a; apply Fin.ext
    match a with
    | ⟨0, _⟩ => show win0_3.index t (0 : Fin 1) * 128 + 1 * j.val = j.val; omega
  show X (((cfg0.win 3).blk t).view.emb (ix1 j)) = X (ix1 j)
  rw [h]

theorem read_scale (X : S128.Idx → Ideal .f32) (t : Fin cfg0.N) (j : Fin 128) :
    ((cfg0.win 4).blk t).view.read (Elt Ideal) X (ix1 j) = X (ix1 j) := by
  obtain ⟨-, -, -, -, -, -, -, e4, -⟩ := idx_facts t
  have h : ((cfg0.win 4).blk t).view.emb (ix1 j) = ix1 j := by
    funext a; apply Fin.ext
    match a with
    | ⟨0, _⟩ => show win0_4.index t (0 : Fin 1) * 128 + 1 * j.val = j.val; omega
  show X (((cfg0.win 4).blk t).view.emb (ix1 j)) = X (ix1 j)
  rw [h]

theorem read_shift (X : S128.Idx → Ideal .f32) (t : Fin cfg0.N) (j : Fin 128) :
    ((cfg0.win 5).blk t).view.read (Elt Ideal) X (ix1 j) = X (ix1 j) := by
  obtain ⟨-, -, -, -, -, -, -, -, e5, -⟩ := idx_facts t
  have h : ((cfg0.win 5).blk t).view.emb (ix1 j) = ix1 j := by
    funext a; apply Fin.ext
    match a with
    | ⟨0, _⟩ => show win0_5.index t (0 : Fin 1) * 128 + 1 * j.val = j.val; omega
  show X (((cfg0.win 5).blk t).view.emb (ix1 j)) = X (ix1 j)
  rw [h]

/-- Each input block at point `t` is its array, as the region finds it, read through the block. -/
theorem blk_features (c : Dev nD) (t : Fin cfg0.N) (p : Fin 20000) (k : Fin 128) (r : Fin 100000)
    (hr : r.val = t.val * 20000 + p.val) :
    (iblk m c 0 t : Vec Ideal S20000x128 .f32) (ix2 p k)
      = (V m c (Pipeline.arrRef spec0 0) : S100000x128.Idx → Ideal .f32) (ix2 r k) := by
  unfold iblk
  exact read_features (V m c (Pipeline.arrRef spec0 0)) t p k r hr

theorem blk_degrees (c : Dev nD) (t : Fin cfg0.N) (p : Fin 20000) (r : Fin 100000)
    (hr : r.val = t.val * 20000 + p.val) :
    (iblk m c 1 t : Vec Ideal S20000x1 .f32) (ix2 p (0 : Fin 1))
      = (V m c (Pipeline.arrRef spec0 1) : S100000x1.Idx → Ideal .f32) (ix2 r (0 : Fin 1)) := by
  unfold iblk
  exact read_degrees (V m c (Pipeline.arrRef spec0 1)) t p r hr

theorem blk_weights (c : Dev nD) (t : Fin cfg0.N) (k j : Fin 128) :
    (iblk m c 2 t : Vec Ideal S128x128 .f32) (ix2 k j)
      = (V m c (Pipeline.arrRef spec0 2) : S128x128.Idx → Ideal .f32) (ix2 k j) := by
  unfold iblk
  exact read_weights (V m c (Pipeline.arrRef spec0 2)) t k j

theorem blk_bias (c : Dev nD) (t : Fin cfg0.N) (j : Fin 128) :
    (iblk m c 3 t : Vec Ideal S128 .f32) (ix1 j) = (V m c (Pipeline.arrRef spec0 3) : S128.Idx → Ideal .f32) (ix1 j) := by
  unfold iblk
  exact read_bias (V m c (Pipeline.arrRef spec0 3)) t j

theorem blk_scale (c : Dev nD) (t : Fin cfg0.N) (j : Fin 128) :
    (iblk m c 4 t : Vec Ideal S128 .f32) (ix1 j) = (V m c (Pipeline.arrRef spec0 4) : S128.Idx → Ideal .f32) (ix1 j) := by
  unfold iblk
  exact read_scale (V m c (Pipeline.arrRef spec0 4)) t j

theorem blk_shift (c : Dev nD) (t : Fin cfg0.N) (j : Fin 128) :
    (iblk m c 5 t : Vec Ideal S128 .f32) (ix1 j) = (V m c (Pipeline.arrRef spec0 5) : S128.Idx → Ideal .f32) (ix1 j) := by
  unfold iblk
  exact read_shift (V m c (Pipeline.arrRef spec0 5)) t j

/-! ## What a point writes back, the cover, and the array -/

/-- An arbitrary array read through the output window's block at point `t`, at a block index. -/
theorem read_out (G : S100000x128.Idx → Ideal .f32) (t : Fin cfg0.N) (y : ((cfg0.win 6).xblock (grid0.coords t)).Idx) :
    ((cfg0.win 6).blk t).view.read (Elt Ideal) G y = G (((cfg0.win 6).blk t).view.emb y) := rfl

/-- What point `t` writes back is block `t` of `result`: entry `(p, q)` of what the body leaves is the output row of
    row `p` of the blocks, the blocks are rows `20000·t + p` of their arrays, and the entry's place in the result array is
    `(20000·t + p, q)`. -/
theorem flushed_eq (c : Dev nD) (t : Fin cfg0.N) :
    (dats m 0 c).flushed 6 t = ((cfg0.win 6).blk t).view.read (Elt Ideal) (result m c) := by
  rw [Value.flushed6]
  obtain ⟨-, -, -, -, -, -, -, -, -, e60, e61, hle⟩ := idx_facts t
  funext y
  have hy0 : (y 0).val < 20000 := (y 0).isLt
  have hy1 : (y 1).val < 128 := (y 1).isLt
  rw [read_out (result m c) t y]
  refine (out_entry (iblk m c 0 t) (iblk m c 1 t) (iblk m c 2 t) (iblk m c 3 t) (iblk m c 4 t) (iblk m c 5 t)
    ((cfg0.win 6).xinj (grid0.coords t) y) ⟨(y 0).val, hy0⟩ ⟨(y 1).val, hy1⟩ rfl rfl).trans ?_
  have hr : ((((cfg0.win 6).blk t).view.emb y) 0).val = t.val * 20000 + (y 0).val := by
    show win0_6.index t (0 : Fin 2) * 20000 + 1 * (y 0).val = _; omega
  have hq : ((((cfg0.win 6).blk t).view.emb y) 1).val = (y 1).val := by
    show win0_6.index t (1 : Fin 2) * 128 + 1 * (y 1).val = _; omega
  refine Eq.trans ?_ (result_rows m c (((cfg0.win 6).blk t).view.emb y) ⟨t.val * 20000 + (y 0).val, by omega⟩
    ⟨(y 1).val, hy1⟩ hr hq).symm
  exact out_proj_congr
    (funext fun k => blk_features m c t ⟨(y 0).val, hy0⟩ k ⟨t.val * 20000 + (y 0).val, by omega⟩ rfl)
    (congrArg invDeg (blk_degrees m c t ⟨(y 0).val, hy0⟩ ⟨t.val * 20000 + (y 0).val, by omega⟩ rfl))
    (funext fun k => funext fun j => blk_weights m c t k j)
    (funext fun j => blk_bias m c t j) (funext fun j => blk_scale m c t j) (funext fun j => blk_shift m c t j)
    ⟨(y 1).val, hy1⟩

/-- An index of the result array is in point `t`'s block iff each coordinate is in the block's range on its axis. -/
theorem mem_blk (t : Fin cfg0.N) (i : S100000x128.Idx) :
    i ∈ ((cfg0.win 6).blk t).view.set ↔ ∀ a : Fin 2, win0_6.index t a * S20000x128.size a ≤ (i a).val
      ∧ (i a).val < win0_6.index t a * S20000x128.size a + S20000x128.size a := by
  show i ∈ ((View.whole main_v15).slice (win0_6.rect t)).set ↔ _
  rw [View.set_slice_whole, Rect.mem_set_unit]
  exact Iff.rfl

/-- The written blocks cover the result array: row `r` is in the block of point `r / 20000`. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto ⟨(i 0).val / 20000, by omega⟩
  have ht' : t.val = (i 0).val / 20000 := ht
  obtain ⟨-, -, -, -, -, -, -, -, -, e60, e61, -⟩ := idx_facts t
  refine ⟨t, flush0_6 t, ?_⟩
  rw [mem_blk]
  intro a
  match a with
  | ⟨0, _⟩ =>
    show win0_6.index t (0 : Fin 2) * 20000 ≤ (i 0).val ∧ (i 0).val < win0_6.index t (0 : Fin 2) * 20000 + 20000
    omega
  | ⟨1, _⟩ =>
    show win0_6.index t (1 : Fin 2) * 128 ≤ (i 1).val ∧ (i 1).val < win0_6.index t (1 : Fin 2) * 128 + 128
    omega

/-- The result array after the run is the layer of the arrays the region found. -/
theorem final (c : Dev nD) : (dats m 0 c).arrAt 6 cfg0.N = result m c :=
  (dats m 0 c).arrAt_eq_of_cover 6 (result m c) (fun t _ => flushed_eq m c t) covered

end Cert.KernelIdeal.ArrayValue

end
-- ==== Proof.RefRow.lean ====
/-
  The reference's result, read at one entry.

  The reference computes the same layer on whole arrays: the in-degrees (a scattered sum of ones) inverted where
  positive, the aggregated features (a scattered sum of gathered feature rows) scaled row by row, one matrix product
  with the weights, the bias, the normalisation over each row's 128 features, the affine map and the clip at 0. Read
  at node `r`, feature `j`, through the generated one-operation-at-a-time lemmas, each broadcast reads its row's (or
  its column's) entry, the matrix product is the sum over the contracted coordinate and each row sum is the initial 0
  plus the sum over the row: the entry is the layer (Layer.lean) of the two scattered sums, the weights and the three
  vectors, at `(r, j)`. The two scattered sums are never opened.
-/
import proofs.«163903_j8985071583979_2_alg».proof.Proof.RefRead
import proofs.«163903_j8985071583979_2_alg».proof.Proof.Layer

noncomputable section

namespace Cert.ReferenceIdeal.RowValue

open Cert.ReferenceIdeal Cert.ReferenceIdeal.ReadP Idealize.ShloMosaic Idealize.ShloMosaic.ValueIdx Cert.GcnLayer
open scoped BigOperators

variable (x0 : (⟨S100000x128, .f32⟩ : BufTy).Contents (Elt Ideal)) (x1 : (⟨S128x128, .f32⟩ : BufTy).Contents (Elt Ideal))
  (x2 x3 x4 : (⟨S128, .f32⟩ : BufTy).Contents (Elt Ideal)) (x5 x6 : (⟨S1600000, .i32⟩ : BufTy).Contents (Elt Ideal))

/-- The inverse in-degree of node `r`. -/
theorem invDeg_at (r : Fin 100000) :
    val_main_v8 (F := Ideal) x6 (ix1 r) = invDeg (val_main_v3 (F := Ideal) x6 (ix1 r)) := by
  rw [val_main_v8_apply, val_main_v5_apply, val_main_v7_apply, val_main_v4_apply, val_main_v6_apply,
    val_main_call0_v1_apply]
  rfl

/-- The scaled aggregated features at `(r, k)`. -/
theorem scaled_at (r : Fin 100000) (k : Fin 128) :
    val_main_v21 (F := Ideal) x0 x5 x6 (ix2 r k)
      = val_main_v19 (F := Ideal) x0 x5 x6 (ix2 r k) * invDeg (val_main_v3 (F := Ideal) x6 (ix1 r)) := by
  rw [val_main_v21_apply, val_main_v20_apply, val_main_v9_apply,
    show idx_main_v9 (idx_main_v20 (ix2 r k)) = ix1 r from funext fun a => by
      match a with
      | ⟨0, _⟩ => rfl,
    invDeg_at]
  rfl

/-- The projected row of node `r`, at `j`. -/
theorem proj_at (r : Fin 100000) (j : Fin 128) :
    val_main_v25 (F := Ideal) x0 x1 x2 x5 x6 (ix2 r j)
      = proj (fun k => val_main_v19 (F := Ideal) x0 x5 x6 (ix2 r k)) (invDeg (val_main_v3 (F := Ideal) x6 (ix1 r)))
          (fun k j => x1 (ix2 k j)) (fun j => x2 (ix1 j)) j := by
  rw [val_main_v25_apply, val_main_v22_apply, val_main_v24_apply, val_main_v23_apply,
    show idx_main_v23 (idx_main_v24 (ix2 r j)) = ix1 j from funext fun a => by
      match a with
      | ⟨0, _⟩ => rfl]
  unfold proj
  show (∑ k : Fin 128, _) + x2 (ix1 j) = _
  refine congrArg (· + x2 (ix1 j)) (Finset.sum_congr rfl fun k _ => ?_)
  rw [show lidx_main_v22 (ix2 r j) k = ix2 r k from funext fun a => by
      match a with
      | ⟨0, _⟩ => rfl
      | ⟨1, _⟩ => rfl,
    show ridx_main_v22 (ix2 r j) k = ix2 k j from funext fun a => by
      match a with
      | ⟨0, _⟩ => rfl
      | ⟨1, _⟩ => rfl,
    scaled_at]

/-- The mean of node `r`'s projected row. -/
theorem mean_at (r : Fin 100000) :
    val_main_v29 (F := Ideal) x0 x1 x2 x5 x6 (ix2 r (0 : Fin 1))
      = mean fun k => val_main_v25 (F := Ideal) x0 x1 x2 x5 x6 (ix2 r k) := by
  rw [val_main_v29_apply, val_main_v27_apply, val_main_v26_apply, val_main_v28_apply,
    show idx_main_v27 (ix2 r (0 : Fin 1)) = ix1 r from funext fun a => by
      match a with
      | ⟨0, _⟩ => rfl]
  show Ideal.div (Ideal.ofBits .f32 0x00000000#32
    + ∑ k : Fin 128, val_main_v25 (F := Ideal) x0 x1 x2 x5 x6 (idx_main_v26 (ix1 r) k)) width = _
  rw [Ideal.ofBits_zero_f32, zero_add]
  unfold mean
  refine congrArg (fun s => Ideal.div s width) (Finset.sum_congr rfl fun k _ => ?_)
  exact congrArg _ (funext fun a => by
    match a with
    | ⟨0, _⟩ => rfl
    | ⟨1, _⟩ => rfl)

/-- The deviation from the mean at `(r, j)`. -/
theorem centred_at (r : Fin 100000) (j : Fin 128) :
    val_main_v31 (F := Ideal) x0 x1 x2 x5 x6 (ix2 r j)
      = val_main_v25 (F := Ideal) x0 x1 x2 x5 x6 (ix2 r j)
        - mean fun k => val_main_v25 (F := Ideal) x0 x1 x2 x5 x6 (ix2 r k) := by
  rw [val_main_v31_apply, val_main_v30_apply,
    show idx_main_v30 (ix2 r j) = ix2 r (0 : Fin 1) from funext fun a => by
      match a with
      | ⟨0, _⟩ => rfl
      | ⟨1, _⟩ => rfl,
    mean_at]
  rfl

/-- The variance of node `r`'s projected row. -/
theorem var_at (r : Fin 100000) :
    val_main_v36 (F := Ideal) x0 x1 x2 x5 x6 (ix2 r (0 : Fin 1))
      = var fun k => val_main_v25 (F := Ideal) x0 x1 x2 x5 x6 (ix2 r k) := by
  rw [val_main_v36_apply, val_main_v34_apply, val_main_v33_apply, val_main_v35_apply,
    show idx_main_v34 (ix2 r (0 : Fin 1)) = ix1 r from funext fun a => by
      match a with
      | ⟨0, _⟩ => rfl]
  show Ideal.div (Ideal.ofBits .f32 0x00000000#32
    + ∑ k : Fin 128, val_main_v32 (F := Ideal) x0 x1 x2 x5 x6 (idx_main_v33 (ix1 r) k)) width = _
  rw [Ideal.ofBits_zero_f32, zero_add]
  unfold var
  refine congrArg (fun s => Ideal.div s width) (Finset.sum_congr rfl fun k _ => ?_)
  rw [show idx_main_v33 (ix1 r) k = ix2 r k from funext fun a => by
      match a with
      | ⟨0, _⟩ => rfl
      | ⟨1, _⟩ => rfl,
    val_main_v32_apply, centred_at]
  rfl

/-- The normalised row of node `r`, at `j`. -/
theorem normed_at (r : Fin 100000) (j : Fin 128) :
    val_main_v43 (F := Ideal) x0 x1 x2 x5 x6 (ix2 r j)
      = normed (fun k => val_main_v25 (F := Ideal) x0 x1 x2 x5 x6 (ix2 r k)) j := by
  rw [val_main_v43_apply, val_main_v38_apply, val_main_v37_apply, val_main_v42_apply, val_main_v41_apply,
    val_main_v40_apply, val_main_v39_apply,
    show idx_main_v37 (ix2 r j) = ix2 r (0 : Fin 1) from funext fun a => by
      match a with
      | ⟨0, _⟩ => rfl
      | ⟨1, _⟩ => rfl,
    show idx_main_v42 (ix2 r j) = ix2 r (0 : Fin 1) from funext fun a => by
      match a with
      | ⟨0, _⟩ => rfl
      | ⟨1, _⟩ => rfl,
    mean_at, var_at]
  rfl

/-- The output row of node `r`, at `j`. -/
theorem out_at (r : Fin 100000) (j : Fin 128) :
    val_main_v50 (F := Ideal) x0 x1 x2 x3 x4 x5 x6 (ix2 r j)
      = out (fun k => val_main_v25 (F := Ideal) x0 x1 x2 x5 x6 (ix2 r k)) (fun j => x3 (ix1 j)) (fun j => x4 (ix1 j)) j := by
  rw [val_main_v50_apply, val_main_v49_apply, val_main_v46_apply, val_main_v45_apply, val_main_v44_apply,
    val_main_v48_apply, val_main_v47_apply, val_main_call1_v0_apply, normed_at,
    show idx_main_v44 (idx_main_v45 (ix2 r j)) = ix1 j from funext fun a => by
      match a with
      | ⟨0, _⟩ => rfl,
    show idx_main_v47 (idx_main_v48 (ix2 r j)) = ix1 j from funext fun a => by
      match a with
      | ⟨0, _⟩ => rfl]
  rfl

/-- The reference's result at `(r, j)` is the layer of the two scattered sums, the weights and the three vectors. -/
theorem result_at (r : Fin 100000) (j : Fin 128) :
    val_main_v50 (F := Ideal) x0 x1 x2 x3 x4 x5 x6 (ix2 r j)
      = layerAt (fun r k => val_main_v19 (F := Ideal) x0 x5 x6 (ix2 r k)) (fun r => val_main_v3 (F := Ideal) x6 (ix1 r))
          (fun k j => x1 (ix2 k j)) (fun j => x2 (ix1 j)) (fun j => x3 (ix1 j)) (fun j => x4 (ix1 j)) r j := by
  rw [out_at]
  unfold layerAt
  exact congrArg (fun p => out p (fun j => x3 (ix1 j)) (fun j => x4 (ix1 j)) j)
    (funext fun k => proj_at x0 x1 x2 x5 x6 r k)

end Cert.ReferenceIdeal.RowValue

end
-- ==== Proof.HostArrays.lean ====
/-
  The arrays the kernel's region finds are the reference's two scattered sums.

  Before the region both programs run the same host operations on the same arguments: the in-degrees, a sum of ones
  scattered by destination node, and the aggregated features, the feature rows gathered by source node and summed by
  destination node. The kernel's program then hands the region the aggregated features as they are and the
  in-degrees as a one-column array. So the two arrays the region finds are, term for term, the reference's two
  scattered sums: nothing here opens a gather or a scattered sum, the two sides are the same operations of the same
  arguments.
-/
import proofs.«163903_j8985071583979_2_alg».proof.Proof.Gen.KernelIdeal.Frame
import proofs.«163903_j8985071583979_2_alg».proof.Proof.RefRead
import Idealize.ShloMosaic.Lib.StableHlo.Run
import Idealize.ShloMosaic.Lib.Pipeline.Value
import Idealize.ShloMosaic.Lib.ValueIdx

noncomputable section

namespace Cert.KernelIdeal.HostArrays

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The feature array the region finds is the reference's aggregated features of the same arguments. -/
theorem features_eq (c : Dev nD) :
    (V m c main_v13 : S100000x128.Idx → Ideal .f32)
      = Cert.ReferenceIdeal.ReadP.val_main_v19 (F := Ideal) (m ((c : Thread nD τ).loc main_arg0))
          (m ((c : Thread nD τ).loc main_arg5)) (m ((c : Thread nD τ).loc main_arg6)) := by
  dsimp only [Gen.V, Gen.hostOps0]
  after_results
  rfl

/-- The in-degree column the region finds is the reference's in-degrees of the same argument, as a column. -/
theorem degrees_eq (c : Dev nD) :
    (V m c main_v14 : S100000x1.Idx → Ideal .f32)
      = broadcastInDim S100000x1 ![0] bcast_S100000_S100000x1_0
          (Cert.ReferenceIdeal.ReadP.val_main_v3 (F := Ideal) (m ((c : Thread nD τ).loc main_arg6))) := by
  dsimp only [Gen.V, Gen.hostOps0]
  after_results
  rfl

/-- Row `r` of that column is the in-degree of node `r`. -/
theorem degrees_at (c : Dev nD) (r : Fin 100000) :
    (V m c main_v14 : S100000x1.Idx → Ideal .f32) (ix2 r (0 : Fin 1))
      = Cert.ReferenceIdeal.ReadP.val_main_v3 (F := Ideal) (m ((c : Thread nD τ).loc main_arg6)) (ix1 r) := by
  rw [degrees_eq]
  exact broadcastInDim_apply _ bcast_S100000_S100000x1_0 _ (ix2 r (0 : Fin 1)) (ix1 r) (fun a => match a with
    | ⟨0, _⟩ => by show r.val = if (100000 : Nat) = 1 then 0 else r.val; rw [if_neg (by decide)])

end Cert.KernelIdeal.HostArrays

end
-- ==== Proof.Bridge.lean ====
/-
  The two results are one function of the arguments.

  The kernel's result array is the layer (Layer.lean) of the arrays its region found (KernelArray.lean); the
  reference's result is the layer of its two scattered sums, the weights and the three vectors (RefRow.lean). The
  region found exactly those scattered sums (HostArrays.lean), and the weights and vectors as launched. So, index by
  index, the two results are equal — by no law of arithmetic at all: both sides are the same expression, and the
  sums over a row and over the contracted coordinate are the same sums.
-/
import proofs.«163903_j8985071583979_2_alg».proof.Proof.KernelArray
import proofs.«163903_j8985071583979_2_alg».proof.Proof.RefRow
import proofs.«163903_j8985071583979_2_alg».proof.Proof.HostArrays

noncomputable section

namespace Cert.KernelIdeal.Bridge

open Cert.KernelIdeal Cert.KernelIdeal.Gen Idealize.ShloMosaic Idealize.ShloMosaic.TcCoe Idealize.SL.Sem
open Idealize.ShloMosaic.ValueIdx Cert.GcnLayer

variable (m : (ℓ : Loc nD τ sig) → Buf (Elt Ideal) ℓ)

/-- The kernel's result array is the reference's result of the same arguments. -/
theorem result_eq (c : Dev nD) :
    ArrayValue.result m c
      = Cert.ReferenceIdeal.ReadP.val_main_v50 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  -- the six arrays the region finds: the two scattered sums, and the weights and vectors as launched
  have e0 : (V m c (Pipeline.arrRef spec0 0) : S100000x128.Idx → Ideal .f32)
      = Cert.ReferenceIdeal.ReadP.val_main_v19 (F := Ideal) (m ((c : Thread nD τ).loc main_arg0))
          (m ((c : Thread nD τ).loc main_arg5)) (m ((c : Thread nD τ).loc main_arg6)) := HostArrays.features_eq m c
  have e1 : (fun r : Fin 100000 => (V m c (Pipeline.arrRef spec0 1) : S100000x1.Idx → Ideal .f32) (ix2 r (0 : Fin 1)))
      = (fun r => Cert.ReferenceIdeal.ReadP.val_main_v3 (F := Ideal) (m ((c : Thread nD τ).loc main_arg6)) (ix1 r)) :=
    funext fun r => HostArrays.degrees_at m c r
  have e2 : V m c (Pipeline.arrRef spec0 2) = m ((c : Thread nD τ).loc main_arg1) := V_main_arg1 m c
  have e3 : V m c (Pipeline.arrRef spec0 3) = m ((c : Thread nD τ).loc main_arg2) := V_main_arg2 m c
  have e4 : V m c (Pipeline.arrRef spec0 4) = m ((c : Thread nD τ).loc main_arg3) := V_main_arg3 m c
  have e5 : V m c (Pipeline.arrRef spec0 5) = m ((c : Thread nD τ).loc main_arg4) := V_main_arg4 m c
  funext i
  obtain ⟨r, j, rfl⟩ : ∃ (r : Fin 100000) (j : Fin 128), i = ix2 r j := ⟨i 0, i 1, eq_ix2 i⟩
  refine (ArrayValue.result_at m c (ix2 r j) r j rfl rfl).trans ?_
  refine Eq.trans ?_ (Cert.ReferenceIdeal.RowValue.result_at _ _ _ _ _ _ _ r j).symm
  exact layerAt_congr (funext fun r => funext fun k => congrFun e0 (ix2 r k)) e1
    (funext fun k => funext fun j => congrFun e2 (ix2 k j)) (funext fun j => congrFun e3 (ix1 j))
    (funext fun j => congrFun e4 (ix1 j)) (funext fun j => congrFun e5 (ix1 j)) r j

end Cert.KernelIdeal.Bridge

end
-- ==== Proof.lean ====
/-
  A graph-convolution layer — the in-neighbours' features summed per node and scaled by the inverse in-degree, a
  linear map, a normalisation over the 128 output features with an affine map, and a clip at 0 — computed two ways:
  by a tiled kernel over five blocks of 20000 nodes behind the host's gather and scattered sums, and by the same
  formulas on whole arrays. Read on the extended reals the two are one function of the arguments.

  * Each result is the layer of Layer.lean: of the arrays the kernel's region finds (KernelRow.lean one block entry at
    a time, KernelArray.lean from the five written blocks to the array), and of the reference's two scattered sums
    (RefRow.lean). The region finds exactly those scattered sums (HostArrays.lean), so the results agree index by
    index (Bridge.lean). No law of arithmetic joins the sides — they are the same expression, the kernel's guarded
    divisor being the in-degree itself wherever the quotient is used —, so the inputs' finiteness is never needed.
  * The three programs run to the end with their arguments unchanged: the kernel's two readings by their frames, the
    reference by its run.
  * The kernel read on the extended reals is the kernel's own text: nothing was rewritten, so there is nothing to
    preserve.
-/
import proofs.«163903_j8985071583979_2_alg».proof.Defs
import proofs.«163903_j8985071583979_2_alg».proof.Proof.Gen.Kernel
import proofs.«163903_j8985071583979_2_alg».proof.Proof.Gen.Kernel.Skeleton
import proofs.«163903_j8985071583979_2_alg».proof.Proof.Gen.Kernel.Launch
import proofs.«163903_j8985071583979_2_alg».proof.Proof.Gen.Kernel.Points
import proofs.«163903_j8985071583979_2_alg».proof.Proof.Gen.Kernel.Frame
import proofs.«163903_j8985071583979_2_alg».proof.Proof.Gen.KernelIdeal
import proofs.«163903_j8985071583979_2_alg».proof.Proof.Gen.KernelIdeal.Skeleton
import proofs.«163903_j8985071583979_2_alg».proof.Proof.Gen.KernelIdeal.Launch
import proofs.«163903_j8985071583979_2_alg».proof.Proof.Gen.KernelIdeal.Points
import proofs.«163903_j8985071583979_2_alg».proof.Proof.Gen.KernelIdeal.Frame
import proofs.«163903_j8985071583979_2_alg».proof.Proof.Gen.ReferenceIdeal
import proofs.«163903_j8985071583979_2_alg».proof.Proof.Gen.Pre_finite_inputs
import proofs.«163903_j8985071583979_2_alg».proof.Proof.Gen.KernelIdeal.Value
import proofs.«163903_j8985071583979_2_alg».proof.Proof.RefRun
import proofs.«163903_j8985071583979_2_alg».proof.Proof.RefRead
import proofs.«163903_j8985071583979_2_alg».proof.Proof.KernelArray
import proofs.«163903_j8985071583979_2_alg».proof.Proof.Bridge
import Idealize.ShloMosaic.Adequacy
import Idealize.ShloMosaic.Init

noncomputable section

namespace Cert.Proof

open Idealize.ShloMosaic Idealize.SL.Sem

/-- The kernel as printed runs to the end, nothing faulting, its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- Nothing of the kernel's text was rewritten for the reading on the extended reals. -/
theorem preserves : Cert.preserves_Kernel_KernelIdeal := trivial

/-- From memories agreeing on the arguments both programs end with the same result: the layer of the arguments. -/
theorem algebraic : Cert.algebraic_KernelIdeal_ReferenceIdeal := by
  intro m ρ m' ρ' _ hagree
  refine ⟨fun c => Cert.KernelIdeal.ArrayValue.result m c, ?_, ?_⟩
  · exact (θ_run Cert.KernelIdeal.defs _ _).mono
      (fun r h c => ⟨(h c).1.trans (Cert.KernelIdeal.ArrayValue.final m c), (h c).2⟩)
      (Cert.KernelIdeal.Value.run_blocks m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v50_eq, (hagree c).1, (hagree c).2.1, (hagree c).2.2.1, (hagree c).2.2.2.1,
      (hagree c).2.2.2.2.1, (hagree c).2.2.2.2.2.1, (hagree c).2.2.2.2.2.2]
    exact (Cert.KernelIdeal.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
